-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x32 : Shape := ⟨3, ![8, 4096, 32]⟩
abbrev S8x4096x4096 : Shape := ⟨3, ![8, 4096, 4096]⟩
abbrev S_ : Shape := ⟨0, ![]⟩

class Facts : Prop where
  bcast_S_S8x4096x32 : S_.BroadcastsInDim S8x4096x32 (![] : Fin 0 → Fin S8x4096x32.rank)
  reducesTo_S8x4096x32_S_d0_1_2 : S8x4096x32.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S8x4096x32 .f32) (main_arg1 : FVec F S8x4096x4096 .f32) : IVec S_ 1 :=
  let main_v0 : FVec F S8x4096x32 .f32 := Host.absf main_arg0
  let main_cst : FVec F S_ .f32 := constant S_ .f32 0x7F800000#32
  let main_v1 : FVec F S8x4096x32 .f32 := broadcastInDim S8x4096x32 ![] bcast_S_S8x4096x32 main_cst
  let main_v2 : IVec S8x4096x32 1 := cmpf .olt main_v0 main_v1
  let main_c : IVec S_ 1 := constantI S_ 1 1#1
  let main_v3 : IVec S_ 1 := (fun x v => Host.reduce IntOp.andi x v reducesTo_S8x4096x32_S_d0_1_2 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S8x4096x32 : Shape := ⟨3, ![8, 4096, 32]⟩
abbrev S8x4096x4096 : Shape := ⟨3, ![8, 4096, 4096]⟩
abbrev S1x1024x4096 : Shape := ⟨3, ![1, 1024, 4096]⟩
abbrev S1x4096x32 : Shape := ⟨3, ![1, 4096, 32]⟩
abbrev S1x1024x32 : Shape := ⟨3, ![1, 1024, 32]⟩
abbrev S1024x4096 : Shape := ⟨2, ![1024, 4096]⟩
abbrev S4096x32 : Shape := ⟨2, ![4096, 32]⟩
abbrev S1024x32 : Shape := ⟨2, ![1024, 32]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x32, .f32⟩
  | .hbm, ⟨1, _⟩ => ⟨S8x4096x4096, .f32⟩
  | .hbm, ⟨2, _⟩ => ⟨S8x4096x32, .f32⟩
  | .local _ .vmem, ⟨0, _⟩ => ⟨S1x1024x4096, .f32⟩
  | .local _ .vmem, ⟨1, _⟩ => ⟨S1x1024x4096, .f32⟩
  | .local _ .vmem, ⟨2, _⟩ => ⟨S1x4096x32, .f32⟩
  | .local _ .vmem, ⟨3, _⟩ => ⟨S1x4096x32, .f32⟩
  | .local _ .vmem, ⟨4, _⟩ => ⟨S1x1024x32, .f32⟩
  | .local _ .vmem, ⟨5, _⟩ => ⟨S1x1024x32, .f32⟩
  | _, _ => ⟨S8x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  dot_S1024x4096_S4096x32_S1024x32_1_0_0_1_n_n_wf : DotDims.WF S1024x4096 S4096x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S8x4096x4096.size a
  hwx0_0 : ∀ i : grid0.Coords, EltTy.bits .f32 = 32 ∨ (Rect.block (s := S8x4096x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x32.size a ≤ S8x4096x32.size a
  hwx0_1 : ∀ i : grid0.Coords, EltTy.bits .f32 = 32 ∨ (Rect.block (s := S8x4096x32) S1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x32.size a ≤ S8x4096x32.size a
  hwx0_2 : ∀ i : grid0.Coords, EltTy.bits .f32 = 32 ∨ (Rect.block (s := S8x4096x32) S1x1024x32.size (cc0_transform_2 i) (hinb0_2 i)).WholeWords (EltTy.packing .f32)

variable [Facts₀]

def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf

abbrev win0_0 : Pipeline.Window sig grid0 :=
  Pipeline.Window.ofSpec (Memref.whole main_arg1) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x32 : Shape := ⟨3, ![8, 4096, 32]⟩
abbrev S8x4096x4096 : Shape := ⟨3, ![8, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x32, .f32⟩
  | .hbm, ⟨1, _⟩ => ⟨S8x4096x4096, .f32⟩
  | .hbm, ⟨2, _⟩ => ⟨S8x4096x32, .f32⟩
  | _, _ => ⟨S8x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x4096_S8x4096x32_S8x4096x32_2_1_1_2_0_0_wf : DotDims.WF S8x4096x4096 S8x4096x32 S8x4096x32 [2] [1] [1] [2] [0] [0]

variable [Facts₀]

def dot_S8x4096x4096_S8x4096x32_S8x4096x32_2_1_1_2_0_0 : DotDims S8x4096x4096 S8x4096x32 S8x4096x32 where
  lhsContracting := [2]
  rhsContracting := [1]
  lhsNonContracting := [1]
  rhsNonContracting := [2]
  lhsBatch := [0]
  rhsBatch := [0]
  wf := dot_S8x4096x4096_S8x4096x32_S8x4096x32_2_1_1_2_0_0_wf

class Facts : Prop extends Facts₀ where

variable [Facts]
-- ==== Proof.BatchedProduct.lean ====
/-
  The batched matrix product, as one function of two arrays. For an array a of shape [8, 4096, 4096] and an array x
  of shape [8, 4096, 32] — eight square matrices and eight tall ones — the product has shape [8, 4096, 32] and holds,
  in batch b, the matrix product a[b] · x[b]:

      prod a x (b, n, d) = Σ_k a (b, n, k) · x (b, k, d),   k over the 4096 shared positions,

  a sum of 4096 products of extended reals. Nothing here speaks of a program.
-/
import Idealize.ShloMosaic.Lib.ValueIdx
import Idealize.ShloMosaic.PureOps.Ideal

noncomputable section

namespace Cert.BatchedProduct

open Idealize.ShloMosaic Idealize.ShloMosaic.ValueIdx

/-- The batched product at the index (b, n, d): row n of a[b] against column d of x[b]. -/
def prod (a : (⟨3, ![8, 4096, 4096]⟩ : Shape).Idx → EReal) (x : (⟨3, ![8, 4096, 32]⟩ : Shape).Idx → EReal) :
    (⟨3, ![8, 4096, 32]⟩ : Shape).Idx → EReal :=
  fun i => ∑ k : Fin 4096, a (ix3 (i 0) (i 1) k) * x (ix3 (i 0) k (i 2))

/-- The same, with the index given by its three coordinates. -/
theorem prod_apply (a : (⟨3, ![8, 4096, 4096]⟩ : Shape).Idx → EReal) (x : (⟨3, ![8, 4096, 32]⟩ : Shape).Idx → EReal)
    (b : Fin 8) (n : Fin 4096) (d : Fin 32) :
    prod a x (ix3 b n d) = ∑ k : Fin 4096, a (ix3 b n k) * x (ix3 b k d) := rfl

end Cert.BatchedProduct

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.BlockProduct.lean ====
/-
  What one grid step computes. The body loads a [1, 1024, 4096] block of the left array and a [1, 4096, 32] block of
  the right array, views them as a 1024 × 4096 and a 4096 × 32 matrix (dropping the leading axis of extent one),
  multiplies them into a zero accumulator, and stores the 1024 × 32 product as a [1, 1024, 32] block (the leading
  axis put back). Read at (0, r, d) the stored block is therefore

      Σ_k  left (0, r, k) · right (0, k, d),   k over the 4096 shared positions:

  dropping or adding an axis of extent one moves no entry, and a product into zero is just the sum of the products.
-/
import proofs.«159810_j19172734010021_2_alg».proof.Proof.Gen.KernelIdeal.Skeleton
import proofs.«159810_j19172734010021_2_alg».proof.Proof.LibPlainDot
import Idealize.ShloMosaic.Lib.Pipeline.Value
import Idealize.ShloMosaic.Lib.ValueIdx

noncomputable section

namespace Cert.KernelIdeal.BlockProduct

open Cert.KernelIdeal Cert.KernelIdeal.Gen Idealize.ShloMosaic Idealize.ShloMosaic.ValueIdx

/-- Putting a coordinate 0 in front of (r, k) gives (0, r, k). -/
theorem cons_zero_ix2 {n1 n2 : Nat} (r : Fin n1) (k : Fin n2) :
    (Fin.cons (⟨0, Nat.one_pos⟩ : Fin 1) (ix2 r k) : (⟨3, ![1, n1, n2]⟩ : Shape).Idx) = ix3 (0 : Fin 1) r k :=
  funext fun a => by
    match a with
    | ⟨0, _⟩ => rfl
    | ⟨1, _⟩ => rfl
    | ⟨2, _⟩ => rfl

/-- Forgetting the first coordinate of (0, r, d) gives (r, d). -/
theorem tail_ix3 {n1 n2 : Nat} (r : Fin n1) (d : Fin n2) :
    (fun a : Fin 2 => (ix3 (0 : Fin 1) r d : (⟨3, ![1, n1, n2]⟩ : Shape).Idx) a.succ) = ix2 r d :=
  funext fun a => by
    match a with
    | ⟨0, _⟩ => rfl
    | ⟨1, _⟩ => rfl

/-- The left block seen as a matrix: entry (r, k) is the block's entry (0, r, k). -/
theorem left_apply (v0 : FVec Ideal S1x1024x4096 .f32) (r : Fin 1024) (k : Fin 4096) :
    shapeCast S1024x4096 v0 Facts₀.shapeCasts_S1x1024x4096_S1024x4096 (ix2 r k) = v0 (ix3 (0 : Fin 1) r k) :=
  (shapeCast_dropUnit_apply ![1024, 4096] v0 _ (ix2 r k)).trans (congrArg v0 (cons_zero_ix2 r k))

/-- The right block seen as a matrix: entry (k, d) is the block's entry (0, k, d). -/
theorem right_apply (v2 : FVec Ideal S1x4096x32 .f32) (k : Fin 4096) (d : Fin 32) :
    shapeCast S4096x32 v2 Facts₀.shapeCasts_S1x4096x32_S4096x32 (ix2 k d) = v2 (ix3 (0 : Fin 1) k d) :=
  (shapeCast_dropUnit_apply ![4096, 32] v2 _ (ix2 k d)).trans (congrArg v2 (cons_zero_ix2 k d))

/-- The dimension numbers the body's product carries are those of a plain 1024 × 4096 by 4096 × 32 product. -/
theorem dims_eq : dot_S1024x4096_S4096x32_S1024x32_1_0_0_1_n_n
    = Cert.Lib.plainDot 1024 4096 32 Facts₀.dot_S1024x4096_S4096x32_S1024x32_1_0_0_1_n_n_wf := rfl

/-- THE STORED BLOCK AT (0, r, d): row r of the left block against column d of the right block. -/
theorem stored_apply (v0 : Vec Ideal S1x1024x4096 .f32) (v2 : Vec Ideal S1x4096x32 .f32) (r : Fin 1024) (d : Fin 32) :
    k0_pay1 (F := Ideal) v0 v2 (ix3 (0 : Fin 1) r d)
      = ∑ k : Fin 4096, v0 (ix3 (0 : Fin 1) r k) * v2 (ix3 (0 : Fin 1) k d) := by
  unfold k0_pay1
  refine (shapeCast_addUnit_apply ![1024, 32] _ _ (ix3 (0 : Fin 1) r d)).trans ?_
  rw [tail_ix3 r d]
  show FloatOps.matmul dot_S1024x4096_S4096x32_S1024x32_1_0_0_1_n_n none _ _ _ (ix2 r d) = _
  rw [dims_eq]
  refine (Cert.Lib.matmul_zero_apply _ none _ _ r d).trans ?_
  exact Finset.sum_congr rfl fun k _ => by rw [left_apply, right_apply]

end Cert.KernelIdeal.BlockProduct

end
-- ==== Proof.Blocks.lean ====
/-
  From the grid's blocks to the whole array. The grid has 8 × 4 points; the point (b, s) takes rows
  1024·s … 1024·s + 1023 of the matrix a[b] (all 4096 columns), the whole matrix x[b], and writes rows
  1024·s … 1024·s + 1023 of out[b]. A row of a product depends only on the same row of the left factor, so what the
  point writes is exactly its own rows of a[b] · x[b]: block (b, s) of the batched product. The 32 blocks tile the
  [8, 4096, 32] result — the index (b, n, d) lies in the block of the point (b, n / 1024) — so after the run the result
  array is the batched product everywhere.
-/
import proofs.«159810_j19172734010021_2_alg».proof.Proof.Gen.KernelIdeal.Value
import proofs.«159810_j19172734010021_2_alg».proof.Proof.BatchedProduct
import proofs.«159810_j19172734010021_2_alg».proof.Proof.BlockProduct

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- ONE ENTRY OF ONE POINT'S BLOCK. If the loaded left block's row (y 1) is row (i 1) of a[i 0], and the loaded right
    block's column (y 2) is column (i 2) of x[i 0], then the stored block at y is the batched product at i. -/
theorem entry_eq (a : S8x4096x4096.Idx → EReal) (x : S8x4096x32.Idx → EReal)
    (v0 : Vec Ideal S1x1024x4096 .f32) (v2 : Vec Ideal S1x4096x32 .f32) (y : S1x1024x32.Idx) (i : S8x4096x32.Idx)
    (h0 : ∀ k : Fin 4096, v0 (ix3 (0 : Fin 1) (y 1) k) = a (ix3 (i 0) (i 1) k))
    (h2 : ∀ k : Fin 4096, v2 (ix3 (0 : Fin 1) k (y 2)) = x (ix3 (i 0) k (i 2))) :
    k0_pay1 (F := Ideal) v0 v2 y = Cert.BatchedProduct.prod a x i := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  rw [hy]
  refine (Cert.KernelIdeal.BlockProduct.stored_apply v0 v2 (y 1) (y 2)).trans ?_
  exact Finset.sum_congr rfl fun k _ => by rw [h0 k, h2 k]

/-- The printed index maps over the 32 grid points: the left window follows the output's batch and row-block and takes
    all columns; the right window follows the output's batch and takes everything else; the output's block indices are
    (batch, row-block, 0). -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (batch, row-block) pair is some grid point's output block. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- WHAT POINT t WRITES BACK is block t of the batched product of the two argument arrays. -/
theorem flushed_eq (c : Dev nD) (t : Fin cfg0.N) :
    (dats m 0 c).flushed 2 t
      = ((cfg0.win 2).blk t).view.read (Elt Ideal) (Cert.BatchedProduct.prod (V m c main_arg1) (V m c main_arg0)) := by
  rw [Cert.KernelIdeal.Value.flushed2]
  unfold out0_2
  rw [View.canon_unit_zero offsets_zero]
  simp only [View.ld_unit_zero (S := S1x1024x4096) offsets_zero, View.ld_unit_zero (S := S1x4096x32) offsets_zero]
  obtain ⟨e0, e1, e2, e3, e4, e5, e6⟩ := idx_facts t
  funext j
  show k0_pay1 (F := Ideal) (iblk m c 0 t) (iblk m c 1 t) j
    = Cert.BatchedProduct.prod (V m c main_arg1) (V m c main_arg0) (((cfg0.win 2).blk t).view.emb j)
  refine entry_eq (V m c main_arg1) (V m c main_arg0) (iblk m c 0 t) (iblk m c 1 t) j _ ?_ ?_
  · intro k
    show V m c main_arg1 (((cfg0.win 0).blk t).view.emb (ix3 (0 : Fin 1) (j 1) k)) = V m c main_arg1 _
    refine congrArg (V m c main_arg1) (funext fun a => Fin.ext ?_)
    match a with
    | ⟨0, _⟩ =>
      show win0_0.index t (0 : Fin 3) * 1 + 1 * 0 = win0_2.index t (0 : Fin 3) * 1 + 1 * (j 0).val
      have hj : (j 0).val < 1 := (j 0).isLt
      omega
    | ⟨1, _⟩ =>
      show win0_0.index t (1 : Fin 3) * 1024 + 1 * (j 1).val = win0_2.index t (1 : Fin 3) * 1024 + 1 * (j 1).val
      omega
    | ⟨2, _⟩ =>
      show win0_0.index t (2 : Fin 3) * 4096 + 1 * k.val = k.val
      omega
  · intro k
    show V m c main_arg0 (((cfg0.win 1).blk t).view.emb (ix3 (0 : Fin 1) k (j 2))) = V m c main_arg0 _
    refine congrArg (V m c main_arg0) (funext fun a => Fin.ext ?_)
    match a with
    | ⟨0, _⟩ =>
      show win0_1.index t (0 : Fin 3) * 1 + 1 * 0 = win0_2.index t (0 : Fin 3) * 1 + 1 * (j 0).val
      have hj : (j 0).val < 1 := (j 0).isLt
      omega
    | ⟨1, _⟩ =>
      show win0_1.index t (1 : Fin 3) * 4096 + 1 * k.val = k.val
      omega
    | ⟨2, _⟩ =>
      show win0_1.index t (2 : Fin 3) * 32 + 1 * (j 2).val = win0_2.index t (2 : Fin 3) * 32 + 1 * (j 2).val
      omega

/-- An index of the result array is in point t's block iff each coordinate is in the block's range on its axis. -/
theorem mem_blk (t : Fin cfg0.N) (i : S8x4096x32.Idx) :
    i ∈ ((cfg0.win 2).blk t).view.set ↔ ∀ a : Fin 3, win0_2.index t a * S1x1024x32.size a ≤ (i a).val
      ∧ (i a).val < win0_2.index t a * S1x1024x32.size a + S1x1024x32.size a := by
  show i ∈ ((View.whole main_v0).slice (win0_2.rect t)).set ↔ _
  rw [View.set_slice_whole, Rect.mem_set_unit]
  exact Iff.rfl

/-- THE BLOCKS TILE THE RESULT: (b, n, d) lies in the block of the point whose output block is (b, n / 1024, 0). -/
theorem cover (i : S8x4096x32.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 32 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 32 ≤ (i 2).val ∧ (i 2).val < win0_2.index t (2 : Fin 3) * 32 + 32
    omega

/-- THE RESULT ARRAY after the run is the batched product of the two argument arrays. -/
theorem final (c : Dev nD) :
    (dats m 0 c).arrAt 2 cfg0.N
      = Cert.BatchedProduct.prod (m ((c : Thread nD τ).loc main_arg1)) (m ((c : Thread nD τ).loc main_arg0)) :=
  (dats m 0 c).arrAt_eq_of_cover 2 _ (fun t _ => flushed_eq m c t) cover

/-- The kernel's run: it ends with the result array at the batched product and the arguments as they were. -/
theorem run : θ_run defs (onTc (τ := τ) (main (F := Ideal))) ⟨m, fun _ => 0, ρ⟩ fun r => ∀ c : Dev nD,
      r.2.mem ((c : Thread nD τ).loc main_v0)
        = Cert.BatchedProduct.prod (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Product

end
-- ==== Proof.Reference.lean ====
/-
  The reference is the batched product. Its one operation is a general dot product of the [8, 4096, 4096] array with
  the [8, 4096, 32] array: the first axis of both is a batch axis, the last axis of the left operand is contracted with
  the middle axis of the right one. At the output index (b, n, d) the contraction runs over k and reads the left operand
  at (b, n, k) and the right at (b, k, d): exactly the entry of a[b] · x[b].
-/
import proofs.«159810_j19172734010021_2_alg».proof.Proof.Gen.ReferenceIdeal.Read
import proofs.«159810_j19172734010021_2_alg».proof.Proof.BatchedProduct

noncomputable section

namespace Cert.ReferenceIdeal.Product

open Cert.ReferenceIdeal Cert.ReferenceIdeal.Read Idealize.ShloMosaic Idealize.ShloMosaic.ValueIdx

/-- The left operand's index at output (b, n, d) and contraction position k is (b, n, k). -/
theorem left_idx (i : S8x4096x32.Idx) (k : Fin 4096) : lidx_main_v0 i k = ix3 (i 0) (i 1) k :=
  funext fun a => by
    match a with
    | ⟨0, _⟩ => rfl
    | ⟨1, _⟩ => rfl
    | ⟨2, _⟩ => rfl

/-- The right operand's index at output (b, n, d) and contraction position k is (b, k, d). -/
theorem right_idx (i : S8x4096x32.Idx) (k : Fin 4096) : ridx_main_v0 i k = ix3 (i 0) k (i 2) :=
  funext fun a => by
    match a with
    | ⟨0, _⟩ => rfl
    | ⟨1, _⟩ => rfl
    | ⟨2, _⟩ => rfl

/-- THE REFERENCE'S RESULT is the batched product of its second argument with its first. -/
theorem result_eq (x0 : S8x4096x32.Idx → EReal) (x1 : S8x4096x4096.Idx → EReal) :
    val_main_v0 (F := Ideal) x0 x1 = Cert.BatchedProduct.prod x1 x0 := by
  funext i
  refine (val_main_v0_apply x0 x1 i).trans ?_
  exact Finset.sum_congr rfl fun k _ =>
    congrArg₂ (· * ·) (congrArg x1 (left_idx i k)) (congrArg x0 (right_idx i k))

end Cert.ReferenceIdeal.Product

end
-- ==== Proof.lean ====
/-
  The kernel computes, for each of 8 batches, the product of a 4096 × 4096 matrix a[b] with a 4096 × 32 matrix x[b],
  1024 rows of the result per grid step; the reference computes the same batched product in one general dot product.

  On the extended reals both results are, at (b, n, d), the sum over k of a (b, n, k) · x (b, k, d): the SAME 4096
  products in both programs, summed over the same index set. Addition of extended reals is commutative and
  associative, so the sum does not depend on how the rows were tiled or in what order a product engine accumulates;
  no entry needs to be finite for this, and the precondition is never opened.

  The kernel's side is read off its run block by block (a point's block holds its own rows of the product, and the
  blocks tile the result); the reference's side is its one operation read at an index. The idealization rewrote
  nothing, so there is nothing to preserve beyond the program's own text.
-/
import proofs.«159810_j19172734010021_2_alg».proof.Defs
import proofs.«159810_j19172734010021_2_alg».proof.Proof.Gen.Kernel
import proofs.«159810_j19172734010021_2_alg».proof.Proof.Gen.Kernel.Skeleton
import proofs.«159810_j19172734010021_2_alg».proof.Proof.Gen.Kernel.Launch
import proofs.«159810_j19172734010021_2_alg».proof.Proof.Gen.Kernel.Points
import proofs.«159810_j19172734010021_2_alg».proof.Proof.Gen.Kernel.Frame
import proofs.«159810_j19172734010021_2_alg».proof.Proof.Gen.KernelIdeal
import proofs.«159810_j19172734010021_2_alg».proof.Proof.Gen.KernelIdeal.Skeleton
import proofs.«159810_j19172734010021_2_alg».proof.Proof.Gen.KernelIdeal.Launch
import proofs.«159810_j19172734010021_2_alg».proof.Proof.Gen.KernelIdeal.Points
import proofs.«159810_j19172734010021_2_alg».proof.Proof.Gen.KernelIdeal.Frame
import proofs.«159810_j19172734010021_2_alg».proof.Proof.Gen.KernelIdeal.Value
import proofs.«159810_j19172734010021_2_alg».proof.Proof.Gen.ReferenceIdeal
import proofs.«159810_j19172734010021_2_alg».proof.Proof.Gen.ReferenceIdeal.Run
import proofs.«159810_j19172734010021_2_alg».proof.Proof.Gen.ReferenceIdeal.Read
import proofs.«159810_j19172734010021_2_alg».proof.Proof.Gen.Pre_finite_inputs
import proofs.«159810_j19172734010021_2_alg».proof.Proof.Blocks
import proofs.«159810_j19172734010021_2_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the result array at the batched product of the second argument with the first: the
    kernel block by block, the reference in one contraction; the arguments agree, so the two products are one. -/
theorem algebraic : Cert.algebraic_KernelIdeal_ReferenceIdeal := by
  intro m ρ m' ρ' _ hagree
  refine ⟨fun c => Cert.BatchedProduct.prod (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, (hagree c).1, (hagree c).2]
  exact Cert.ReferenceIdeal.Product.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
